-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1x256 : Shape := ⟨3, ![262144, 1, 256]⟩
abbrev S3x256 : Shape := ⟨2, ![3, 256]⟩
abbrev S_ : Shape := ⟨0, ![]⟩

class Facts : Prop where
  bcast_S_S262144x1x256 : S_.BroadcastsInDim S262144x1x256 (![] : Fin 0 → Fin S262144x1x256.rank)
  reducesTo_S262144x1x256_S_d0_1_2 : S262144x1x256.ReducesTo [0, 1, 2] S_
  h_S_ : 0 < S_.numel
  bcast_S_S3x256 : S_.BroadcastsInDim S3x256 (![] : Fin 0 → Fin S3x256.rank)
  reducesTo_S3x256_S_d0_1 : S3x256.ReducesTo [0, 1] S_

variable [Facts]

def fn {F : FTy → Type} [FloatOps F] (main_arg0 : FVec F S262144x1x256 .f32) (main_arg1 : FVec F S3x256 .f32) (main_arg2 : FVec F S3x256 .f32) : IVec S_ 1 :=
  let main_v0 : FVec F S262144x1x256 .f32 := Host.absf main_arg0
  let main_cst : FVec F S_ .f32 := constant S_ .f32 0x7F800000#32
  let main_v1 : FVec F S262144x1x256 .f32 := broadcastInDim S262144x1x256 ![] bcast_S_S262144x1x256 main_cst
  let main_v2 : IVec S262144x1x256 1 := cmpf .olt main_v0 main_v1
  let main_c : IVec S_ 1 := constantI S_ 1 1#1
  let main_v3 : IVec S_ 1 := (fun x v => Host.reduce IntOp.andi x v reducesTo_S262144x1x256_S_d0_1_2 h_S_) main_v2 main_c
  let main_v4 : FVec F S3x256 .f32 := Host.absf main_arg1
  let main_cst_0 : FVec F S_ .f32 := constant S_ .f32 0x7F800000#32
  let main_v5 : FVec F S3x256 .f32 := broadcastInDim S3x256 ![] bcast_S_S3x256 main_cst_0
  let main_v6 : IVec S3x256 1 := cmpf .olt main_v4 main_v5
  let main_c_1 : IVec S_ 1 := constantI S_ 1 1#1
  let main_v7 : IVec S_ 1 := (fun x v => Host.reduce IntOp.andi x v reducesTo_S3x256_S_d0_1 h_S_) main_v6 main_c_1
  let main_v8 : IVec S_ 1 := andi main_v3 main_v7
  let main_v9 : FVec F S3x256 .f32 := Host.absf main_arg2
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  main_v13
-- ==== Kernel.lean ====
abbrev S262144x1x256 : Shape := ⟨3, ![262144, 1, 256]⟩
abbrev S3x256 : Shape := ⟨2, ![3, 256]⟩
abbrev S262144x256 : Shape := ⟨2, ![262144, 256]⟩
abbrev S4096x1x256 : Shape := ⟨3, ![4096, 1, 256]⟩
abbrev S4096x256 : Shape := ⟨2, ![4096, 256]⟩
abbrev S4096 : Shape := ⟨1, ![4096]⟩
abbrev S4096x1 : Shape := ⟨2, ![4096, 1]⟩
abbrev S1x256 : Shape := ⟨2, ![1, 256]⟩
abbrev S256 : Shape := ⟨1, ![256]⟩
abbrev S1 : Shape := ⟨1, ![1]⟩
abbrev S1x1 : Shape := ⟨2, ![1, 1]⟩

abbrev nBuf : Space → Nat
  | .hbm => 4
  | .vmem => 6
  | .smem => 0
  | _ => 0

abbrev bufTy : (tb : Table) → Fin (tcTables nBuf tb) → BufTy
  | .hbm, ⟨0, _⟩ => ⟨S262144x1x256, .f32⟩
  | .hbm, ⟨1, _⟩ => ⟨S3x256, .f32⟩
  | .hbm, ⟨2, _⟩ => ⟨S3x256, .f32⟩
  | .hbm, ⟨3, _⟩ => ⟨S262144x256, .f32⟩
  | .local _ .vmem, ⟨0, _⟩ => ⟨S4096x1x256, .f32⟩
  | .local _ .vmem, ⟨1, _⟩ => ⟨S4096x1x256, .f32⟩
  | .local _ .vmem, ⟨2, _⟩ => ⟨S3x256, .f32⟩
  | .local _ .vmem, ⟨3, _⟩ => ⟨S3x256, .f32⟩
  | .local _ .vmem, ⟨4, _⟩ => ⟨S4096x256, .f32⟩
  | .local _ .vmem, ⟨5, _⟩ => ⟨S4096x256, .f32⟩
  | _, _ => ⟨S262144x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4096x1x256_S4096x1x256_0_0_0 : ∀ a, (![0, 0, 0] : Fin 3 → Nat) a + S4096x1x256.size a ≤ S4096x1x256.size a
  h_S4096x1x256 : 0 < S4096x1x256.numel
  shapeCasts_S4096x1x256_S4096x256 : S4096x1x256.ShapeCasts S4096x256
  inb_S3x256_S3x256_0_0 : ∀ a, (![0, 0] : Fin 2 → Nat) a + S3x256.size a ≤ S3x256.size a
  h_S3x256 : 0 < S3x256.numel
  reduces_S4096x256_S4096 : S4096x256.Reduces [1] S4096
  shapeCasts_S4096_S4096x1 : S4096.ShapeCasts S4096x1
  slices_S3x256_o0_0_S1x256 : S3x256.Slices ![0, 0] S1x256
  shapeCasts_S1x256_S256 : S1x256.ShapeCasts S256
  shapeCasts_S256_S1x256 : S256.ShapeCasts S1x256
  broadcasts_S1x256_S4096x256 : S1x256.Broadcasts S4096x256
  reduces_S1x256_S1 : S1x256.Reduces [1] S1
  shapeCasts_S1_S1x1 : S1.ShapeCasts S1x1
  inpos_S1x1_p0_0 : ∀ a, (![0, 0] : Fin 2 → Nat) a < S1x1.size a
  slices_S3x256_o1_0_S1x256 : S3x256.Slices ![1, 0] S1x256
  slices_S3x256_o2_0_S1x256 : S3x256.Slices ![2, 0] S1x256
  broadcasts_S1x1_S4096x1 : S1x1.Broadcasts S4096x1
  broadcasts_S4096x1_S4096x256 : S4096x1.Broadcasts S4096x256
  inb_S4096x256_S4096x256_0_0 : ∀ a, (![0, 0] : Fin 2 → Nat) a + S4096x256.size a ≤ S4096x256.size a
  h_S4096x256 : 0 < S4096x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1x256.size a ≤ S262144x1x256.size a
  hwx0_0 : ∀ i : grid0.Coords, EltTy.bits .f32 = 32 ∨ (Rect.block (s := S262144x1x256) S4096x1x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x256.size a ≤ S3x256.size a
  hwx0_1 : ∀ i : grid0.Coords, EltTy.bits .f32 = 32 ∨ (Rect.block (s := S3x256) S3x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x256.size a ≤ S3x256.size a
  hwx0_2 : ∀ i : grid0.Coords, EltTy.bits .f32 = 32 ∨ (Rect.block (s := S3x256) S3x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S262144x256.size a
  hwx0_3 : ∀ i : grid0.Coords, EltTy.bits .f32 = 32 ∨ (Rect.block (s := S262144x256) S4096x256.size (cc0_transform_3 i) (hinb0_3 i)).WholeWords (EltTy.packing .f32)

variable [Facts₀]

abbrev win0_0 : Pipeline.Window sig grid0 :=
  Pipeline.Window.ofSpec (Memref.whole main_arg0) S4096x1x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x1x256 : Shape := ⟨3, ![262144, 1, 256]⟩
abbrev S3x256 : Shape := ⟨2, ![3, 256]⟩
abbrev S262144x256 : Shape := ⟨2, ![262144, 256]⟩
abbrev S_ : Shape := ⟨0, ![]⟩
abbrev S262144 : Shape := ⟨1, ![262144]⟩
abbrev S262144x1 : Shape := ⟨2, ![262144, 1]⟩
abbrev S1x256 : Shape := ⟨2, ![1, 256]⟩
abbrev S256 : Shape := ⟨1, ![256]⟩

abbrev nBuf : Space → Nat
  | .hbm => 52
  | .vmem => 0
  | .smem => 0
  | _ => 0

abbrev bufTy : (tb : Table) → Fin (tcTables nBuf tb) → BufTy
  | .hbm, ⟨0, _⟩ => ⟨S262144x1x256, .f32⟩
  | .hbm, ⟨1, _⟩ => ⟨S3x256, .f32⟩
  | .hbm, ⟨2, _⟩ => ⟨S3x256, .f32⟩
  | .hbm, ⟨3, _⟩ => ⟨S262144x256, .f32⟩
  | .hbm, ⟨4, _⟩ => ⟨S_, .f32⟩
  | .hbm, ⟨5, _⟩ => ⟨S262144, .f32⟩
  | .hbm, ⟨6, _⟩ => ⟨S262144x1, .f32⟩
  | .hbm, ⟨7, _⟩ => ⟨S1x256, .f32⟩
  | .hbm, ⟨8, _⟩ => ⟨S256, .f32⟩
  | .hbm, ⟨9, _⟩ => ⟨S1x256, .f32⟩
  | .hbm, ⟨10, _⟩ => ⟨S262144x256, .f32⟩
  | .hbm, ⟨11, _⟩ => ⟨S262144x256, .f32⟩
  | .hbm, ⟨12, _⟩ => ⟨S262144x256, .f32⟩
  | .hbm, ⟨13, _⟩ => ⟨S262144x256, .f32⟩
  | .hbm, ⟨14, _⟩ => ⟨S1x256, .f32⟩
  | .hbm, ⟨15, _⟩ => ⟨S256, .f32⟩
  | .hbm, ⟨16, _⟩ => ⟨S1x256, .f32⟩
  | .hbm, ⟨17, _⟩ => ⟨S262144x256, .f32⟩
  | .hbm, ⟨18, _⟩ => ⟨S262144x256, .f32⟩
  | .hbm, ⟨19, _⟩ => ⟨S262144x256, .f32⟩
  | .hbm, ⟨20, _⟩ => ⟨S_, .f32⟩
  | .hbm, ⟨21, _⟩ => ⟨S262144, .f32⟩
  | .hbm, ⟨22, _⟩ => ⟨S262144x1, .f32⟩
  | .hbm, ⟨23, _⟩ => ⟨S1x256, .f32⟩
  | .hbm, ⟨24, _⟩ => ⟨S256, .f32⟩
  | .hbm, ⟨25, _⟩ => ⟨S1x256, .f32⟩
  | .hbm, ⟨26, _⟩ => ⟨S262144x256, .f32⟩
  | .hbm, ⟨27, _⟩ => ⟨S262144x256, .f32⟩
  | .hbm, ⟨28, _⟩ => ⟨S262144x256, .f32⟩
  | .hbm, ⟨29, _⟩ => ⟨S262144x256, .f32⟩
  | .hbm, ⟨30, _⟩ => ⟨S1x256, .f32⟩
  | .hbm, ⟨31, _⟩ => ⟨S256, .f32⟩
  | .hbm, ⟨32, _⟩ => ⟨S1x256, .f32⟩
  | .hbm, ⟨33, _⟩ => ⟨S262144x256, .f32⟩
  | .hbm, ⟨34, _⟩ => ⟨S262144x256, .f32⟩
  | .hbm, ⟨35, _⟩ => ⟨S262144x256, .f32⟩
  | .hbm, ⟨36, _⟩ => ⟨S_, .f32⟩
  | .hbm, ⟨37, _⟩ => ⟨S262144, .f32⟩
  | .hbm, ⟨38, _⟩ => ⟨S262144x1, .f32⟩
  | .hbm, ⟨39, _⟩ => ⟨S1x256, .f32⟩
  | .hbm, ⟨40, _⟩ => ⟨S256, .f32⟩
  | .hbm, ⟨41, _⟩ => ⟨S1x256, .f32⟩
  | .hbm, ⟨42, _⟩ => ⟨S262144x256, .f32⟩
  | .hbm, ⟨43, _⟩ => ⟨S262144x256, .f32⟩
  | .hbm, ⟨44, _⟩ => ⟨S262144x256, .f32⟩
  | .hbm, ⟨45, _⟩ => ⟨S262144x256, .f32⟩
  | .hbm, ⟨46, _⟩ => ⟨S1x256, .f32⟩
  | .hbm, ⟨47, _⟩ => ⟨S256, .f32⟩
  | .hbm, ⟨48, _⟩ => ⟨S1x256, .f32⟩
  | .hbm, ⟨49, _⟩ => ⟨S262144x256, .f32⟩
  | .hbm, ⟨50, _⟩ => ⟨S262144x256, .f32⟩
  | .hbm, ⟨51, _⟩ => ⟨S262144x256, .f32⟩
  | _, _ => ⟨S262144x1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩

abbrev nD : Nat := 1
abbrev τ : Topo := Topo.v7x

variable {F : FTy → Type} [FloatOps F]

class Facts₀ : Prop where
  shapeCasts_S262144x1x256_S262144x256 : S262144x1x256.ShapeCasts S262144x256
  reducesTo_S262144x256_S262144_d1 : S262144x256.ReducesTo [1] S262144
  h_S_ : 0 < S_.numel
  bcast_S262144_S262144x1_0 : S262144.BroadcastsInDim S262144x1 (![0] : Fin 1 → Fin S262144x1.rank)
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S262144x1_S262144x256_0_1 : S262144x1.BroadcastsInDim S262144x256 (![0, 1] : Fin 2 → Fin S262144x256.rank)
  slices_S3x256_S1x256_1_0 : S3x256.Slices ![1, 0] S1x256
  slices_S3x256_S1x256_2_0 : S3x256.Slices ![2, 0] S1x256

variable [Facts₀]

class Facts : Prop extends Facts₀ where

variable [Facts]
-- ==== Proof.CrossSpec.lean ====
/-
  One row of the cross network, written both ways over the extended reals.

  For a row `x` of the batch and the three layers' weight rows `w0 w1 w2` and bias rows `b0 b1 b2`,
  the network keeps `cross_{i+1} = s_i · (w_i ⊙ x) + b_i + x` with `s_i = Σ_k cross_i[k]` and
  `cross_0 = x`; the result is `cross_3`.

  * LAYERED: every `s_i` is the sum of the layer's whole row, taken from an initial zero.
  * SCALARISED: only the scalars cross the layers, `s_{i+1} = s_i · Σ_k (w_i ⊙ x)[k] + Σ_k b_i[k] + Σ_k x[k]`.

  The two agree when every entry is a real number: a real scalar distributes over a finite sum and a
  finite sum of sums regroups. On the extended reals neither holds at the infinities, so the
  law is stated on real rows (`layered_eq_scalarised`), and for the whole arrays under the hypothesis
  that every entry is real (`layeredArr_eq_scalarisedArr`).
-/
import Idealize.ShloMosaic.PureOps.Ideal
import Idealize.ShloMosaic.PureOps.Ideal.Laws
import Idealize.ShloMosaic.Lib.ValueIdx

noncomputable section

namespace Cert.Cross

open Idealize.ShloMosaic Idealize.ShloMosaic.ValueIdx

/-- The batch of rows `x`: 262144 rows of 256 entries, with a middle axis of extent one. -/
abbrev Rows : Shape := ⟨3, ![262144, 1, 256]⟩
/-- The three layers' weight rows, and likewise their bias rows. -/
abbrev Params : Shape := ⟨2, ![3, 256]⟩
/-- The result: one row of 256 entries per row of the batch. -/
abbrev Out : Shape := ⟨2, ![262144, 256]⟩

/-- The f32 zero word as an extended real: what every host sum starts from. -/
abbrev zeroWord : EReal := Ideal.ofBits .f32 0x00000000#32

theorem zeroWord_eq : zeroWord = 0 := Ideal.ofBits_zero_f32

/-! ## One row -/

section row

variable {ι : Type} [Fintype ι]

/-- The result at column `j`, every `s_i` the sum (from zero) of the layer's whole row. -/
def layered (x w0 w1 w2 b0 b1 b2 : ι → EReal) (j : ι) : EReal :=
  ((zeroWord + ∑ k, (((zeroWord + ∑ k, (((zeroWord + ∑ k, x k) * (w0 k * x k) + b0 k) + x k))
      * (w1 k * x k) + b1 k) + x k)) * (w2 j * x j) + b2 j) + x j

/-- The result at column `j`, only scalars crossing the layers. -/
def scalarised (x w0 w1 w2 b0 b1 b2 : ι → EReal) (j : ι) : EReal :=
  ((((((∑ k, x k) * (∑ k, w0 k * x k) + ∑ k, b0 k) + ∑ k, x k) * (∑ k, w1 k * x k) + ∑ k, b1 k) + ∑ k, x k)
      * (w2 j * x j) + b2 j) + x j

/-- A finite sum of real numbers, taken in the extended reals, is the real sum. -/
theorem coe_sum (f : ι → ℝ) : (∑ k, ((f k : ℝ) : EReal)) = ((∑ k, f k : ℝ) : EReal) := by
  classical
  refine Finset.induction_on (Finset.univ : Finset ι) (by simp) ?_
  intro a s ha ih
  rw [Finset.sum_insert ha, Finset.sum_insert ha, ih, EReal.coe_add]

/-- On real rows the two forms agree: `Σ_k (s · (w k · x k) + b k + x k) = s · Σ_k w k · x k + Σ_k b k + Σ_k x k`
    for a real `s`, layer after layer. -/
theorem layered_eq_scalarised (x w0 w1 w2 b0 b1 b2 : ι → ℝ) (j : ι) :
    layered (fun k => (x k : EReal)) (fun k => (w0 k : EReal)) (fun k => (w1 k : EReal)) (fun k => (w2 k : EReal))
        (fun k => (b0 k : EReal)) (fun k => (b1 k : EReal)) (fun k => (b2 k : EReal)) j
      = scalarised (fun k => (x k : EReal)) (fun k => (w0 k : EReal)) (fun k => (w1 k : EReal)) (fun k => (w2 k : EReal))
        (fun k => (b0 k : EReal)) (fun k => (b1 k : EReal)) (fun k => (b2 k : EReal)) j := by
  unfold layered scalarised
  simp only [zeroWord_eq, zero_add, ← EReal.coe_mul, ← EReal.coe_add, coe_sum]
  refine congrArg (fun a : ℝ => (a : EReal)) ?_
  simp only [Finset.sum_add_distrib, ← Finset.mul_sum]

end row

/-! ## The whole arrays -/

/-- Row `r` of the batch. -/
def rowOf (X : Rows.Idx → EReal) (r : Fin 262144) : Fin 256 → EReal := fun k => X (ix3 r 0 k)

/-- Layer `l`'s row of the weights (or of the biases). -/
def paramRow (W : Params.Idx → EReal) (l : Fin 3) : Fin 256 → EReal := fun k => W (ix2 l k)

/-- The layered result at row `r`, column `j`. -/
def layeredAt (X : Rows.Idx → EReal) (W B : Params.Idx → EReal) (r : Fin 262144) (j : Fin 256) : EReal :=
  layered (rowOf X r) (paramRow W 0) (paramRow W 1) (paramRow W 2) (paramRow B 0) (paramRow B 1) (paramRow B 2) j

/-- The scalarised result at row `r`, column `j`. -/
def scalarisedAt (X : Rows.Idx → EReal) (W B : Params.Idx → EReal) (r : Fin 262144) (j : Fin 256) : EReal :=
  scalarised (rowOf X r) (paramRow W 0) (paramRow W 1) (paramRow W 2) (paramRow B 0) (paramRow B 1) (paramRow B 2) j

/-- The layered result as one array. -/
def layeredArr (X : Rows.Idx → EReal) (W B : Params.Idx → EReal) : Out.Idx → EReal :=
  fun i => layeredAt X W B (i 0) (i 1)

/-- The scalarised result as one array. -/
def scalarisedArr (X : Rows.Idx → EReal) (W B : Params.Idx → EReal) : Out.Idx → EReal :=
  fun i => scalarisedAt X W B (i 0) (i 1)

theorem layeredArr_ix2 (X : Rows.Idx → EReal) (W B : Params.Idx → EReal) (r : Fin 262144) (j : Fin 256) :
    layeredArr X W B (ix2 r j) = layeredAt X W B r j := rfl

theorem scalarisedArr_ix2 (X : Rows.Idx → EReal) (W B : Params.Idx → EReal) (r : Fin 262144) (j : Fin 256) :
    scalarisedArr X W B (ix2 r j) = scalarisedAt X W B r j := rfl

/-- When every entry of the three arrays is a real number, the two arrays are one. -/
theorem layeredArr_eq_scalarisedArr (X : Rows.Idx → EReal) (W B : Params.Idx → EReal)
    (hX : ∀ i, ∃ a : ℝ, X i = (a : EReal)) (hW : ∀ i, ∃ a : ℝ, W i = (a : EReal)) (hB : ∀ i, ∃ a : ℝ, B i = (a : EReal)) :
    layeredArr X W B = scalarisedArr X W B := by
  choose x hx using hX
  choose w hw using hW
  choose b hb using hB
  obtain rfl : X = fun i => ((x i : ℝ) : EReal) := funext hx
  obtain rfl : W = fun i => ((w i : ℝ) : EReal) := funext hw
  obtain rfl : B = fun i => ((b i : ℝ) : EReal) := funext hb
  funext i
  exact layered_eq_scalarised (fun k => x (ix3 (i 0) 0 k)) (fun k => w (ix2 0 k)) (fun k => w (ix2 1 k)) (fun k => w (ix2 2 k))
    (fun k => b (ix2 0 k)) (fun k => b (ix2 1 k)) (fun k => b (ix2 2 k)) (i 1)

end Cert.Cross

end
-- ==== Proof.RefValue.lean ====
/-
  The reference's result, entry by entry, is the layered array of its arguments.

  The reference flattens the batch to 262144 rows of 256 entries and runs three layers; in each it sums
  every row of the current `cross` (from an initial zero), spreads the sums back over the columns, multiplies
  them into the layer's weight row times the batch, and adds the layer's bias row and the batch. Every
  operation is read at row `r`, column `k`: the reshapes, slices and broadcasts move an entry without changing
  it (the index equations `idx_…`), and a sum along a row is the zero word plus the sum over the 256 columns.
  Composed, the last stage at (r, j) is the layered form of row `r` and the six parameter rows
  (`reference_is_layered`).
-/
import proofs.«107063_j74491912782062_2_alg».proof.Proof.Gen.ReferenceIdeal.Read
import proofs.«107063_j74491912782062_2_alg».proof.Proof.CrossSpec

noncomputable section

namespace Cert.Cross.Ref

open Idealize.ShloMosaic Idealize.ShloMosaic.ValueIdx Cert.ReferenceIdeal

/-- The batch of rows, and a parameter array (the three weight rows, or the three bias rows), as extended reals. -/
abbrev XArr := (⟨S262144x1x256, .f32⟩ : BufTy).Contents (Elt Ideal)
abbrev PArr := (⟨S3x256, .f32⟩ : BufTy).Contents (Elt Ideal)

/-! ## The layout operations at explicit coordinates -/

/-- Flattening `[262144, 1, 256]` to `[262144, 256]` keeps the row and the column:
    `(r * 256 + k) / 256 = r` and `(r * 256 + k) % 256 = k` for `k < 256`. -/
theorem idx_x (r : Fin 262144) (k : Fin 256) : Read.idx_main_v0 (ix2 r k) = ix3 r 0 k := by
  funext a
  apply Fin.ext
  have hk : k.val < 256 := k.isLt
  match a with
  | ⟨0, _⟩ => show (r.val * 256 + k.val) / 256 = r.val; omega
  | ⟨1, _⟩ => rfl
  | ⟨2, _⟩ => show (r.val * 256 + k.val) % 256 = k.val; omega

theorem v0_at (X : XArr) (r : Fin 262144) (k : Fin 256) :
    Read.val_main_v0 (F := Ideal) X (ix2 r k) = X (ix3 r 0 k) :=
  (Read.val_main_v0_apply X (ix2 r k)).trans (congrArg X (idx_x r k))

/-- Layer 0's weights: slicing row 0, dropping the unit axis, and broadcasting over the rows reads column `k` of row 0. -/
theorem idx_w0 (r : Fin 262144) (k : Fin 256) :
    Read.idx_main_v3 (Read.idx_main_v4 (Read.idx_main_v5 (Read.idx_main_v6 (ix2 r k)))) = ix2 (0 : Fin 3) k := by
  funext a
  apply Fin.ext
  have hk : k.val < 256 := k.isLt
  match a with
  | ⟨0, _⟩ => rfl
  | ⟨1, _⟩ => show k.val % 256 = k.val; omega

theorem v6_at (P : PArr) (r : Fin 262144) (k : Fin 256) :
    Read.val_main_v6 (F := Ideal) P (ix2 r k) = P (ix2 (0 : Fin 3) k) :=
  (Read.val_main_v6_apply P _).trans <| (Read.val_main_v5_apply P _).trans <| (Read.val_main_v4_apply P _).trans <|
    (Read.val_main_v3_apply P _).trans (congrArg P (idx_w0 r k))

/-- Layer 0's biases: slicing row 0, dropping the unit axis, and broadcasting over the rows reads column `k` of row 0. -/
theorem idx_b0 (r : Fin 262144) (k : Fin 256) :
    Read.idx_main_v10 (Read.idx_main_v11 (Read.idx_main_v12 (Read.idx_main_v13 (ix2 r k)))) = ix2 (0 : Fin 3) k := by
  funext a
  apply Fin.ext
  have hk : k.val < 256 := k.isLt
  match a with
  | ⟨0, _⟩ => rfl
  | ⟨1, _⟩ => show k.val % 256 = k.val; omega

theorem v13_at (P : PArr) (r : Fin 262144) (k : Fin 256) :
    Read.val_main_v13 (F := Ideal) P (ix2 r k) = P (ix2 (0 : Fin 3) k) :=
  (Read.val_main_v13_apply P _).trans <| (Read.val_main_v12_apply P _).trans <| (Read.val_main_v11_apply P _).trans <|
    (Read.val_main_v10_apply P _).trans (congrArg P (idx_b0 r k))

/-- Layer 1's weights: slicing row 1, dropping the unit axis, and broadcasting over the rows reads column `k` of row 1. -/
theorem idx_w1 (r : Fin 262144) (k : Fin 256) :
    Read.idx_main_v18 (Read.idx_main_v19 (Read.idx_main_v20 (Read.idx_main_v21 (ix2 r k)))) = ix2 (1 : Fin 3) k := by
  funext a
  apply Fin.ext
  have hk : k.val < 256 := k.isLt
  match a with
  | ⟨0, _⟩ => rfl
  | ⟨1, _⟩ => show k.val % 256 = k.val; omega

theorem v21_at (P : PArr) (r : Fin 262144) (k : Fin 256) :
    Read.val_main_v21 (F := Ideal) P (ix2 r k) = P (ix2 (1 : Fin 3) k) :=
  (Read.val_main_v21_apply P _).trans <| (Read.val_main_v20_apply P _).trans <| (Read.val_main_v19_apply P _).trans <|
    (Read.val_main_v18_apply P _).trans (congrArg P (idx_w1 r k))

/-- Layer 1's biases: slicing row 1, dropping the unit axis, and broadcasting over the rows reads column `k` of row 1. -/
theorem idx_b1 (r : Fin 262144) (k : Fin 256) :
    Read.idx_main_v25 (Read.idx_main_v26 (Read.idx_main_v27 (Read.idx_main_v28 (ix2 r k)))) = ix2 (1 : Fin 3) k := by
  funext a
  apply Fin.ext
  have hk : k.val < 256 := k.isLt
  match a with
  | ⟨0, _⟩ => rfl
  | ⟨1, _⟩ => show k.val % 256 = k.val; omega

theorem v28_at (P : PArr) (r : Fin 262144) (k : Fin 256) :
    Read.val_main_v28 (F := Ideal) P (ix2 r k) = P (ix2 (1 : Fin 3) k) :=
  (Read.val_main_v28_apply P _).trans <| (Read.val_main_v27_apply P _).trans <| (Read.val_main_v26_apply P _).trans <|
    (Read.val_main_v25_apply P _).trans (congrArg P (idx_b1 r k))

/-- Layer 2's weights: slicing row 2, dropping the unit axis, and broadcasting over the rows reads column `k` of row 2. -/
theorem idx_w2 (r : Fin 262144) (k : Fin 256) :
    Read.idx_main_v33 (Read.idx_main_v34 (Read.idx_main_v35 (Read.idx_main_v36 (ix2 r k)))) = ix2 (2 : Fin 3) k := by
  funext a
  apply Fin.ext
  have hk : k.val < 256 := k.isLt
  match a with
  | ⟨0, _⟩ => rfl
  | ⟨1, _⟩ => show k.val % 256 = k.val; omega

theorem v36_at (P : PArr) (r : Fin 262144) (k : Fin 256) :
    Read.val_main_v36 (F := Ideal) P (ix2 r k) = P (ix2 (2 : Fin 3) k) :=
  (Read.val_main_v36_apply P _).trans <| (Read.val_main_v35_apply P _).trans <| (Read.val_main_v34_apply P _).trans <|
    (Read.val_main_v33_apply P _).trans (congrArg P (idx_w2 r k))

/-- Layer 2's biases: slicing row 2, dropping the unit axis, and broadcasting over the rows reads column `k` of row 2. -/
theorem idx_b2 (r : Fin 262144) (k : Fin 256) :
    Read.idx_main_v40 (Read.idx_main_v41 (Read.idx_main_v42 (Read.idx_main_v43 (ix2 r k)))) = ix2 (2 : Fin 3) k := by
  funext a
  apply Fin.ext
  have hk : k.val < 256 := k.isLt
  match a with
  | ⟨0, _⟩ => rfl
  | ⟨1, _⟩ => show k.val % 256 = k.val; omega

theorem v43_at (P : PArr) (r : Fin 262144) (k : Fin 256) :
    Read.val_main_v43 (F := Ideal) P (ix2 r k) = P (ix2 (2 : Fin 3) k) :=
  (Read.val_main_v43_apply P _).trans <| (Read.val_main_v42_apply P _).trans <| (Read.val_main_v41_apply P _).trans <|
    (Read.val_main_v40_apply P _).trans (congrArg P (idx_b2 r k))

/-! ## The three layers, index by index

`cross1`, `cross2`, `cross3` are the network's rows after one, two and three layers, each scalar the
sum (from the zero word) of the previous layer's whole row. -/

/-- Row `r` after layer 0. -/
def cross1 (X : XArr) (W B : PArr) (r : Fin 262144) (k : Fin 256) : EReal :=
  ((zeroWord + ∑ k' : Fin 256, X (ix3 r 0 k')) * (W (ix2 (0 : Fin 3) k) * X (ix3 r 0 k)) + B (ix2 (0 : Fin 3) k)) + X (ix3 r 0 k)

/-- Row `r` after layer 1. -/
def cross2 (X : XArr) (W B : PArr) (r : Fin 262144) (k : Fin 256) : EReal :=
  ((zeroWord + ∑ k' : Fin 256, cross1 X W B r k') * (W (ix2 (1 : Fin 3) k) * X (ix3 r 0 k)) + B (ix2 (1 : Fin 3) k)) + X (ix3 r 0 k)

/-- Row `r` after layer 2: the result. -/
def cross3 (X : XArr) (W B : PArr) (r : Fin 262144) (k : Fin 256) : EReal :=
  ((zeroWord + ∑ k' : Fin 256, cross2 X W B r k') * (W (ix2 (2 : Fin 3) k) * X (ix3 r 0 k)) + B (ix2 (2 : Fin 3) k)) + X (ix3 r 0 k)

/-- Broadcasting the row sums back over the columns reads row `r`'s sum. -/
theorem idx_s0 (r : Fin 262144) (k : Fin 256) :
    Read.idx_main_v2 (Read.idx_main_v8 (ix2 r k)) = ix1 r := by
  funext a
  match a with
  | ⟨0, _⟩ => rfl

/-- The `k'`-th term of row `r`'s sum is the entry at row `r`, column `k'`. -/
theorem idx_s0_term (r : Fin 262144) (k' : Fin 256) :
    Read.idx_main_v1 (ix1 r) k' = ix2 r k' := by
  funext a
  match a with
  | ⟨0, _⟩ => rfl
  | ⟨1, _⟩ => rfl

/-- Layer 0's scalar, broadcast: the zero word plus the sum of row `r` of the batch. -/
theorem v8_at (X : XArr) (r : Fin 262144) (k : Fin 256) :
    Read.val_main_v8 (F := Ideal) X (ix2 r k) = zeroWord + ∑ k' : Fin 256, X (ix3 r 0 k') := by
  refine (Read.val_main_v8_apply X (ix2 r k)).trans ?_
  refine (Read.val_main_v2_apply X _).trans ?_
  refine (congrArg (Read.val_main_v1 (F := Ideal) X) (idx_s0 r k)).trans ?_
  refine (Read.val_main_v1_apply X (ix1 r)).trans ?_
  show zeroWord + (∑ k' : Fin 256, Read.val_main_v0 (F := Ideal) X (Read.idx_main_v1 (ix1 r) k'))
    = zeroWord + ∑ k' : Fin 256, X (ix3 r 0 k')
  refine congrArg (zeroWord + ·) (Finset.sum_congr rfl fun k' _ => ?_)
  exact (congrArg (Read.val_main_v0 (F := Ideal) X) (idx_s0_term r k')).trans (v0_at X r k')

/-- After layer 0: `s₀ · (w₀ ⊙ x) + b₀ + x` at row `r`, column `k`. -/
theorem v15_at (X : XArr) (W B : PArr) (r : Fin 262144) (k : Fin 256) :
    Read.val_main_v15 (F := Ideal) X W B (ix2 r k) = cross1 X W B r k := by
  show (Read.val_main_v8 (F := Ideal) X (ix2 r k)
        * (Read.val_main_v6 (F := Ideal) W (ix2 r k) * Read.val_main_v0 (F := Ideal) X (ix2 r k))
        + Read.val_main_v13 (F := Ideal) B (ix2 r k)) + Read.val_main_v0 (F := Ideal) X (ix2 r k) = _
  rw [v8_at, v6_at, v13_at, v0_at]
  rfl

/-- Broadcasting the row sums back over the columns reads row `r`'s sum. -/
theorem idx_s1 (r : Fin 262144) (k : Fin 256) :
    Read.idx_main_v17 (Read.idx_main_v23 (ix2 r k)) = ix1 r := by
  funext a
  match a with
  | ⟨0, _⟩ => rfl

/-- The `k'`-th term of row `r`'s sum is the entry at row `r`, column `k'`. -/
theorem idx_s1_term (r : Fin 262144) (k' : Fin 256) :
    Read.idx_main_v16 (ix1 r) k' = ix2 r k' := by
  funext a
  match a with
  | ⟨0, _⟩ => rfl
  | ⟨1, _⟩ => rfl

/-- Layer 1's scalar, broadcast: the zero word plus the sum of row `r` after layer 0. -/
theorem v23_at (X : XArr) (W B : PArr) (r : Fin 262144) (k : Fin 256) :
    Read.val_main_v23 (F := Ideal) X W B (ix2 r k) = zeroWord + ∑ k' : Fin 256, cross1 X W B r k' := by
  refine (Read.val_main_v23_apply X W B (ix2 r k)).trans ?_
  refine (Read.val_main_v17_apply X W B _).trans ?_
  refine (congrArg (Read.val_main_v16 (F := Ideal) X W B) (idx_s1 r k)).trans ?_
  refine (Read.val_main_v16_apply X W B (ix1 r)).trans ?_
  show zeroWord + (∑ k' : Fin 256, Read.val_main_v15 (F := Ideal) X W B (Read.idx_main_v16 (ix1 r) k'))
    = zeroWord + ∑ k' : Fin 256, cross1 X W B r k'
  refine congrArg (zeroWord + ·) (Finset.sum_congr rfl fun k' _ => ?_)
  exact (congrArg (Read.val_main_v15 (F := Ideal) X W B) (idx_s1_term r k')).trans (v15_at X W B r k')

/-- After layer 1: `s₁ · (w₁ ⊙ x) + b₁ + x` at row `r`, column `k`. -/
theorem v30_at (X : XArr) (W B : PArr) (r : Fin 262144) (k : Fin 256) :
    Read.val_main_v30 (F := Ideal) X W B (ix2 r k) = cross2 X W B r k := by
  show (Read.val_main_v23 (F := Ideal) X W B (ix2 r k)
        * (Read.val_main_v21 (F := Ideal) W (ix2 r k) * Read.val_main_v0 (F := Ideal) X (ix2 r k))
        + Read.val_main_v28 (F := Ideal) B (ix2 r k)) + Read.val_main_v0 (F := Ideal) X (ix2 r k) = _
  rw [v23_at, v21_at, v28_at, v0_at]
  rfl

/-- Broadcasting the row sums back over the columns reads row `r`'s sum. -/
theorem idx_s2 (r : Fin 262144) (k : Fin 256) :
    Read.idx_main_v32 (Read.idx_main_v38 (ix2 r k)) = ix1 r := by
  funext a
  match a with
  | ⟨0, _⟩ => rfl

/-- The `k'`-th term of row `r`'s sum is the entry at row `r`, column `k'`. -/
theorem idx_s2_term (r : Fin 262144) (k' : Fin 256) :
    Read.idx_main_v31 (ix1 r) k' = ix2 r k' := by
  funext a
  match a with
  | ⟨0, _⟩ => rfl
  | ⟨1, _⟩ => rfl

/-- Layer 2's scalar, broadcast: the zero word plus the sum of row `r` after layer 1. -/
theorem v38_at (X : XArr) (W B : PArr) (r : Fin 262144) (k : Fin 256) :
    Read.val_main_v38 (F := Ideal) X W B (ix2 r k) = zeroWord + ∑ k' : Fin 256, cross2 X W B r k' := by
  refine (Read.val_main_v38_apply X W B (ix2 r k)).trans ?_
  refine (Read.val_main_v32_apply X W B _).trans ?_
  refine (congrArg (Read.val_main_v31 (F := Ideal) X W B) (idx_s2 r k)).trans ?_
  refine (Read.val_main_v31_apply X W B (ix1 r)).trans ?_
  show zeroWord + (∑ k' : Fin 256, Read.val_main_v30 (F := Ideal) X W B (Read.idx_main_v31 (ix1 r) k'))
    = zeroWord + ∑ k' : Fin 256, cross2 X W B r k'
  refine congrArg (zeroWord + ·) (Finset.sum_congr rfl fun k' _ => ?_)
  exact (congrArg (Read.val_main_v30 (F := Ideal) X W B) (idx_s2_term r k')).trans (v30_at X W B r k')

/-- The result: `s₂ · (w₂ ⊙ x) + b₂ + x` at row `r`, column `k`. -/
theorem v45_at (X : XArr) (W B : PArr) (r : Fin 262144) (k : Fin 256) :
    Read.val_main_v45 (F := Ideal) X W B (ix2 r k) = cross3 X W B r k := by
  show (Read.val_main_v38 (F := Ideal) X W B (ix2 r k)
        * (Read.val_main_v36 (F := Ideal) W (ix2 r k) * Read.val_main_v0 (F := Ideal) X (ix2 r k))
        + Read.val_main_v43 (F := Ideal) B (ix2 r k)) + Read.val_main_v0 (F := Ideal) X (ix2 r k) = _
  rw [v38_at, v36_at, v43_at, v0_at]
  rfl

/-- The three layers written out are the row form of the specification. -/
theorem cross3_eq_layeredAt (X : XArr) (W B : PArr) (r : Fin 262144) (j : Fin 256) :
    cross3 X W B r j = Cert.Cross.layeredAt X W B r j := rfl

theorem reference_is_layered (X : (⟨S262144x1x256, .f32⟩ : BufTy).Contents (Elt Ideal)) (W B : (⟨S3x256, .f32⟩ : BufTy).Contents (Elt Ideal)) :
    Read.val_main_v45 (F := Ideal) X W B = Cert.Cross.layeredArr X W B := by
  funext i
  obtain ⟨r, j, rfl⟩ : ∃ (r : Fin 262144) (j : Fin 256), i = ix2 r j := ⟨i 0, i 1, eq_ix2 i⟩
  rw [Cert.Cross.layeredArr_ix2]
  exact (v45_at X W B r j).trans (cross3_eq_layeredAt X W B r j)

end Cert.Cross.Ref

end
-- ==== Proof.KernelBlock.lean ====
/-
  What the kernel body leaves in one output block, index by index.

  A block is 4096 consecutive rows of the batch (`P0`, with its middle axis of extent one) beside the whole
  weight and bias arrays (`P1`, `P2`). The body takes each row's sum, the row sums of the rows weighted by layer 0's
  and layer 1's weight rows, and the sums of layer 0's and layer 1's bias rows; from these scalars it forms
  `s_1` and `s_2`, and stores `s_2 · (w_2 ⊙ x) + b_2 + x`. Read at row `p`, column `q` of the block this is the
  SCALARISED form (Proof/CrossSpec.lean) of row `p` of the block and the six parameter rows (`block_at`).

  The body's pieces are named here by what they compute — a parameter row as a [1, 256] vector (`paramVec`), the
  lane sums of a [4096, 256] vector as a column (`laneSumCol`), the sum of a [1, 256] row splat down a column
  (`rowSumCol`), a row times every row of the block (`rowTimes`) — and each is read at an index once.
-/
import proofs.«107063_j74491912782062_2_alg».proof.Proof.Gen.KernelIdeal.Value
import proofs.«107063_j74491912782062_2_alg».proof.Proof.CrossSpec
import Idealize.ShloMosaic.Lib.ValueIdx
import Idealize.ShloMosaic.Lib.Pipeline.Value
import Idealize.ShloMosaic.PureOps.Ideal.Laws

noncomputable section

namespace Cert.Cross.Block

open Cert.KernelIdeal Cert.KernelIdeal.Gen Idealize.ShloMosaic Idealize.ShloMosaic.ValueIdx

/-! ## The body's pieces -/

/-- Row `o` of a [3, 256] array as a [1, 256] vector: sliced out, its unit axis dropped and restored. -/
def paramVec (o : Nat) (h : S3x256.Slices ![o, 0] S1x256) (P : Vec Ideal S3x256 .f32) : FVec Ideal S1x256 .f32 :=
  shapeCast S1x256 (shapeCast S256 (extractStridedSlice S1x256 ![o, 0] P h) shapeCasts_S1x256_S256) shapeCasts_S256_S1x256

/-- The sum along the lanes of each row of a [4096, 256] vector. -/
def laneSum (v : FVec Ideal S4096x256 .f32) : FVec Ideal S4096 .f32 :=
  multiReduction .add [1] S4096 v 0x00000000#32 reduces_S4096x256_S4096 (.inl rfl) rfl

/-- The same as a column [4096, 1]. -/
def laneSumCol (v : FVec Ideal S4096x256 .f32) : FVec Ideal S4096x1 .f32 :=
  shapeCast S4096x1 (laneSum v) shapeCasts_S4096_S4096x1

/-- The sum of a [1, 256] row, splat down a column [4096, 1]. -/
def rowSumCol (v : FVec Ideal S1x256 .f32) : FVec Ideal S4096x1 .f32 :=
  broadcastTo S4096x1 (shapeCast S1x1 (broadcast S1 (extractAt ![0, 0]
    (shapeCast S1x1 (multiReduction .add [1] S1 v 0x00000000#32 reduces_S1x256_S1 (.inl rfl) rfl) shapeCasts_S1_S1x1)
    inpos_S1x1_p0_0)) shapeCasts_S1_S1x1) broadcasts_S1x1_S4096x1

/-- A [1, 256] row times every row of a [4096, 256] vector. -/
def rowTimes (w : FVec Ideal S1x256 .f32) (x : FVec Ideal S4096x256 .f32) : FVec Ideal S4096x256 .f32 :=
  mulf (broadcastTo S4096x256 w broadcasts_S1x256_S4096x256) x

/-- The body's scalars as these pieces: the row sums, `s_1 · Σ (w_1 ⊙ x)`, and the sum of layer 1's biases. -/
theorem pay3_tree (P0 : Vec Ideal S4096x1x256 .f32) : k0_pay3 P0 = laneSumCol (k0_pay2 P0) := rfl

theorem pay5_tree (P0 : Vec Ideal S4096x1x256 .f32) (P1 P2 : Vec Ideal S3x256 .f32) :
    k0_pay5 P0 P1 P2
      = mulf (addf (addf (mulf (k0_pay3 P0) (laneSumCol (rowTimes (paramVec 0 slices_S3x256_o0_0_S1x256 P1) (k0_pay2 P0))))
            (rowSumCol (paramVec 0 slices_S3x256_o0_0_S1x256 P2))) (k0_pay3 P0))
          (laneSumCol (rowTimes (paramVec 1 slices_S3x256_o1_0_S1x256 P1) (k0_pay2 P0))) := rfl

theorem pay6_tree (P2 : Vec Ideal S3x256 .f32) : k0_pay6 P2 = rowSumCol (paramVec 1 slices_S3x256_o1_0_S1x256 P2) := rfl

/-! ## Each piece at an index -/

/-- The block with its unit axis dropped, at row `p`, lane `k`. -/
theorem rows_at (P0 : Vec Ideal S4096x1x256 .f32) (p : Fin 4096) (k : Fin 256) :
    k0_pay2 P0 (ix2 p k) = P0 (ix3 p 0 k) := by
  unfold k0_pay2
  exact shapeCast_apply P0 shapeCasts_S4096x1x256_S4096x256 (ix2 p k) (ix3 p 0 k)
    (by rw [Shape.rowMajor_val_three, Shape.rowMajor_val_two]
        show (p.val * 1 + 0) * 256 + k.val = p.val * 256 + k.val
        omega)

/-- Row `o` of a parameter array, as a [1, 256] vector, at lane `k`. -/
theorem paramVec_at (o : Nat) (ho : o < 3) (h : S3x256.Slices ![o, 0] S1x256) (P : Vec Ideal S3x256 .f32) (k : Fin 256) :
    paramVec o h P (ix2 0 k) = P (ix2 ⟨o, ho⟩ k) := by
  unfold paramVec
  refine (shapeCast_apply _ shapeCasts_S256_S1x256 (ix2 0 k) (ix1 k)
    (by rw [Shape.rowMajor_val_one, Shape.rowMajor_val_two]; show k.val = 0 * 256 + k.val; omega)).trans ?_
  refine (shapeCast_apply _ shapeCasts_S1x256_S256 (ix1 k) (ix2 0 k)
    (by rw [Shape.rowMajor_val_two, Shape.rowMajor_val_one]; show 0 * 256 + k.val = k.val; omega)).trans ?_
  exact extractStridedSlice_apply ![o, 0] P h (ix2 0 k) (ix2 ⟨o, ho⟩ k) (fun a => match a with
    | ⟨0, _⟩ => by show o = o + 0; omega
    | ⟨1, _⟩ => by show k.val = 0 + k.val; omega)

/-- A lane sum at row `p` is the sum over the 256 lanes. -/
theorem laneSum_at (v : FVec Ideal S4096x256 .f32) (p : Fin 4096) :
    laneSum v (ix1 p) = ∑ k : Fin 256, v (ix2 p k) := by
  unfold laneSum
  refine (Ideal.multiReduction_add_single v 0x00000000#32 reduces_S4096x256_S4096 (.inl rfl) rfl (ix1 p)).trans ?_
  refine Finset.sum_congr rfl fun k _ => ?_
  exact congrArg v (funext fun a => Fin.ext (by match a with | ⟨0, _⟩ => rfl | ⟨1, _⟩ => rfl))

theorem laneSumCol_at (v : FVec Ideal S4096x256 .f32) (p : Fin 4096) :
    laneSumCol v (ix2 p 0) = ∑ k : Fin 256, v (ix2 p k) := by
  unfold laneSumCol
  refine (shapeCast_apply _ shapeCasts_S4096_S4096x1 (ix2 p 0) (ix1 p)
    (by rw [Shape.rowMajor_val_one, Shape.rowMajor_val_two]; show p.val = p.val * 1 + 0; omega)).trans ?_
  exact laneSum_at v p

/-- The splat row sum, at any row of the column, is the sum over the row's 256 lanes. -/
theorem rowSumCol_at (v : FVec Ideal S1x256 .f32) (p : Fin 4096) :
    rowSumCol v (ix2 p 0) = ∑ k : Fin 256, v (ix2 0 k) := by
  unfold rowSumCol
  refine (broadcastTo_apply _ broadcasts_S1x1_S4096x1 (ix2 p 0) (ix2 0 0) (fun a => match a with
    | ⟨0, _⟩ => by show 0 = (if (1 : Nat) = 1 then 0 else p.val); rw [if_pos rfl]
    | ⟨1, _⟩ => by show 0 = (if (1 : Nat) = 1 then 0 else 0); rw [if_pos rfl])).trans ?_
  refine (shapeCast_apply _ shapeCasts_S1_S1x1 (ix2 0 0) (ix1 0)
    (by rw [Shape.rowMajor_val_one, Shape.rowMajor_val_two]; show 0 = 0 * 1 + 0; omega)).trans ?_
  show extractAt ![0, 0] (shapeCast S1x1 (multiReduction .add [1] S1 v 0x00000000#32 reduces_S1x256_S1 (.inl rfl) rfl) shapeCasts_S1_S1x1) inpos_S1x1_p0_0 = _
  unfold extractAt
  refine (shapeCast_apply _ shapeCasts_S1_S1x1 _ (ix1 0)
    (by rw [Shape.rowMajor_val_one, Shape.rowMajor_val_two]; show 0 = 0 * 1 + 0; omega)).trans ?_
  refine (Ideal.multiReduction_add_single v 0x00000000#32 reduces_S1x256_S1 (.inl rfl) rfl (ix1 0)).trans ?_
  refine Finset.sum_congr rfl fun k _ => ?_
  exact congrArg v (funext fun a => Fin.ext (by match a with | ⟨0, _⟩ => rfl | ⟨1, _⟩ => rfl))

theorem rowTimes_at (w : FVec Ideal S1x256 .f32) (x : FVec Ideal S4096x256 .f32) (p : Fin 4096) (k : Fin 256) :
    rowTimes w x (ix2 p k) = w (ix2 0 k) * x (ix2 p k) := by
  unfold rowTimes
  show broadcastTo S4096x256 w broadcasts_S1x256_S4096x256 (ix2 p k) * x (ix2 p k) = _
  refine congrArg (· * x (ix2 p k)) ?_
  exact broadcastTo_apply w broadcasts_S1x256_S4096x256 (ix2 p k) (ix2 0 k) (fun a => match a with
    | ⟨0, _⟩ => by show 0 = (if (1 : Nat) = 1 then 0 else p.val); rw [if_pos rfl]
    | ⟨1, _⟩ => by show k.val = (if (256 : Nat) = 1 then 0 else k.val); rw [if_neg (by decide)])

/-! ## The body's scalars at a row -/

/-- The row sum of row `p`. -/
theorem pay3_at (P0 : Vec Ideal S4096x1x256 .f32) (p : Fin 4096) :
    k0_pay3 P0 (ix2 p 0) = ∑ k : Fin 256, P0 (ix3 p 0 k) := by
  rw [pay3_tree, laneSumCol_at]
  exact Finset.sum_congr rfl fun k _ => rows_at P0 p k

/-- The sum of row `p` weighted by parameter row `o`. -/
theorem weighted_at (o : Nat) (ho : o < 3) (h : S3x256.Slices ![o, 0] S1x256) (P0 : Vec Ideal S4096x1x256 .f32) (P1 : Vec Ideal S3x256 .f32) (p : Fin 4096) :
    laneSumCol (rowTimes (paramVec o h P1) (k0_pay2 P0)) (ix2 p 0) = ∑ k : Fin 256, P1 (ix2 ⟨o, ho⟩ k) * P0 (ix3 p 0 k) := by
  rw [laneSumCol_at]
  refine Finset.sum_congr rfl fun k _ => ?_
  rw [rowTimes_at, paramVec_at o ho, rows_at]

/-- The sum of parameter row `o`. -/
theorem biasSum_at (o : Nat) (ho : o < 3) (h : S3x256.Slices ![o, 0] S1x256) (P2 : Vec Ideal S3x256 .f32) (p : Fin 4096) :
    rowSumCol (paramVec o h P2) (ix2 p 0) = ∑ k : Fin 256, P2 (ix2 ⟨o, ho⟩ k) := by
  rw [rowSumCol_at]
  exact Finset.sum_congr rfl fun k _ => paramVec_at o ho h P2 k

/-! ## The block -/

/-- The block the body leaves, at row `p`, column `q`: the scalarised form of row `p` and the parameter rows. -/
theorem block_at (P0 : Vec Ideal S4096x1x256 .f32) (P1 P2 : Vec Ideal S3x256 .f32) (p : Fin 4096) (q : Fin 256) :
    Cert.KernelIdeal.Value.E3 (F := Ideal) P0 P1 P2 (ix2 p q)
      = Cert.Cross.scalarised (fun k => P0 (ix3 p 0 k)) (fun k => P1 (ix2 0 k)) (fun k => P1 (ix2 1 k)) (fun k => P1 (ix2 2 k))
          (fun k => P2 (ix2 0 k)) (fun k => P2 (ix2 1 k)) (fun k => P2 (ix2 2 k)) q := by
  -- where the block index (p, q) reads each operand: the column entry (p, 0), row p, the parameter entry (2, q), the entry (p, 0, q)
  have i0 : Cert.KernelIdeal.Value.ix3_0 (ix2 p q) = ix2 p 0 := funext fun a => by match a with | ⟨0, _⟩ => rfl | ⟨1, _⟩ => rfl
  have i1 : Cert.KernelIdeal.Value.ix3_1 (ix2 p q) = ix2 p 0 := funext fun a => by match a with | ⟨0, _⟩ => rfl | ⟨1, _⟩ => rfl
  have i2 : Cert.KernelIdeal.Value.ix3_2 (ix2 p q) = ix1 p := funext fun a => by match a with | ⟨0, _⟩ => rfl
  have i3 : Cert.KernelIdeal.Value.ix3_3 (ix2 p q) = ix2 2 q := funext fun a => by match a with | ⟨0, _⟩ => rfl | ⟨1, _⟩ => rfl
  have i4 : Cert.KernelIdeal.Value.ix3_4 (ix2 p q) = ix3 p 0 q := funext fun a => by match a with | ⟨0, _⟩ => rfl | ⟨1, _⟩ => rfl | ⟨2, _⟩ => rfl
  have i5 : Cert.KernelIdeal.Value.ix3_5 (ix2 p q) = ix2 2 q := funext fun a => by match a with | ⟨0, _⟩ => rfl | ⟨1, _⟩ => rfl
  have i6 : Cert.KernelIdeal.Value.ix3_6 (ix2 p q) = ix3 p 0 q := funext fun a => by match a with | ⟨0, _⟩ => rfl | ⟨1, _⟩ => rfl | ⟨2, _⟩ => rfl
  show (((k0_pay5 P0 P1 P2 (Cert.KernelIdeal.Value.ix3_0 (ix2 p q)) + k0_pay6 P2 (Cert.KernelIdeal.Value.ix3_1 (ix2 p q)))
      + laneSum (k0_pay2 P0) (Cert.KernelIdeal.Value.ix3_2 (ix2 p q)))
      * (P1 (Cert.KernelIdeal.Value.ix3_3 (ix2 p q)) * P0 (Cert.KernelIdeal.Value.ix3_4 (ix2 p q))) + P2 (Cert.KernelIdeal.Value.ix3_5 (ix2 p q)))
      + P0 (Cert.KernelIdeal.Value.ix3_6 (ix2 p q)) = _
  rw [i0, i1, i2, i3, i4, i5, i6]
  have e5 : k0_pay5 P0 P1 P2 (ix2 p 0)
      = (((∑ k : Fin 256, P0 (ix3 p 0 k)) * (∑ k : Fin 256, P1 (ix2 0 k) * P0 (ix3 p 0 k)) + ∑ k : Fin 256, P2 (ix2 0 k))
          + ∑ k : Fin 256, P0 (ix3 p 0 k)) * (∑ k : Fin 256, P1 (ix2 1 k) * P0 (ix3 p 0 k)) := by
    rw [pay5_tree]
    show (((k0_pay3 P0 (ix2 p 0)) * (laneSumCol (rowTimes (paramVec 0 slices_S3x256_o0_0_S1x256 P1) (k0_pay2 P0)) (ix2 p 0))
        + rowSumCol (paramVec 0 slices_S3x256_o0_0_S1x256 P2) (ix2 p 0)) + k0_pay3 P0 (ix2 p 0))
        * (laneSumCol (rowTimes (paramVec 1 slices_S3x256_o1_0_S1x256 P1) (k0_pay2 P0)) (ix2 p 0)) = _
    rw [pay3_at, weighted_at 0 (by decide), biasSum_at 0 (by decide), weighted_at 1 (by decide)]
    rfl
  have e6 : k0_pay6 P2 (ix2 p 0) = ∑ k : Fin 256, P2 (ix2 1 k) := by
    rw [pay6_tree, biasSum_at 1 (by decide)]
    rfl
  have e3 : laneSum (k0_pay2 P0) (ix1 p) = ∑ k : Fin 256, P0 (ix3 p 0 k) := by
    rw [laneSum_at]
    exact Finset.sum_congr rfl fun k _ => rows_at P0 p k
  rw [e5, e6, e3]
  rfl

end Cert.Cross.Block

end
-- ==== Proof.KernelArray.lean ====
/-
  From the blocks to the array: the kernel's result is the scalarised array of its arguments.

  The grid has 64 points. Point `t` reads rows `4096·t … 4096·t + 4095` of the batch (all of each row), the whole
  weight and bias arrays, and writes the same rows of the result. What it writes is, entry by entry, the
  scalarised form of the row it sits in (Proof/KernelBlock.lean); a row's entry depends on that row of the
  batch and on the parameter rows only, so block `t` of the scalarised ARRAY is exactly what point `t` writes
  (`flushed_eq`). Row `r` lies in the block of point `r / 4096`, so the 64 blocks cover the result (`cover`),
  and the array after the run is the scalarised array (`final`, `kernel_run`).
-/
import proofs.«107063_j74491912782062_2_alg».proof.Proof.Gen.KernelIdeal.Value
import proofs.«107063_j74491912782062_2_alg».proof.Proof.CrossSpec
import proofs.«107063_j74491912782062_2_alg».proof.Proof.KernelBlock

noncomputable section

namespace Cert.Cross.Kernel

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem offsets2 : (![0, 0] : Fin 2 → Nat) = fun _ => 0 := funext fun a => by fin_cases a <;> rfl
theorem offsets3 : (![0, 0, 0] : Fin 3 → Nat) = fun _ => 0 := funext fun a => by fin_cases a <;> rfl

/-- The block indices at point `t`, decided over the 64 points: the batch and the result move one block of rows per
    point, the parameter arrays stay. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `4096·t + p` of the array. -/
def rowAt (t : Fin cfg0.N) (p : Fin 4096) : Fin 262144 :=
  ⟨t.val * 4096 + p.val, by have ht : t.val < 64 := lt_of_lt_of_eq t.isLt N_0; have hp := p.isLt; omega⟩

/-- The batch's block at point `t`, at (p, 0, k): the array at row `4096·t + p`. -/
theorem rows_block_at (c : Dev nD) (t : Fin cfg0.N) (p : Fin 4096) (k : Fin 256) :
    iblk m c 0 t (ix3 p 0 k) = V m c main_arg0 (ix3 (rowAt t p) 0 k) := by
  obtain ⟨e0, e1, e2, -⟩ := block_indices t
  have h : ((cfg0.win 0).blk t).view.emb (ix3 p 0 k) = ix3 (rowAt t p) 0 k := by
    funext a; apply Fin.ext
    match a with
    | ⟨0, _⟩ => show win0_0.index t (0 : Fin 3) * 4096 + 1 * p.val = t.val * 4096 + p.val; omega
    | ⟨1, _⟩ => show win0_0.index t (1 : Fin 3) * 1 + 1 * 0 = 0; omega
    | ⟨2, _⟩ => show win0_0.index t (2 : Fin 3) * 256 + 1 * k.val = k.val; omega
  show V m c main_arg0 (((cfg0.win 0).blk t).view.emb (ix3 p 0 k)) = _
  rw [h]

/-- The weights' block at every point is the whole array. -/
theorem weights_block_at (c : Dev nD) (t : Fin cfg0.N) (l : Fin 3) (k : Fin 256) :
    iblk m c 1 t (ix2 l k) = V m c main_arg1 (ix2 l k) := by
  obtain ⟨-, -, -, e0, e1, -⟩ := block_indices t
  have h : ((cfg0.win 1).blk t).view.emb (ix2 l k) = ix2 l k := by
    funext a; apply Fin.ext
    match a with
    | ⟨0, _⟩ => show win0_1.index t (0 : Fin 2) * 3 + 1 * l.val = l.val; omega
    | ⟨1, _⟩ => show win0_1.index t (1 : Fin 2) * 256 + 1 * k.val = k.val; omega
  show V m c main_arg1 (((cfg0.win 1).blk t).view.emb (ix2 l k)) = _
  rw [h]

/-- The biases' block at every point is the whole array. -/
theorem biases_block_at (c : Dev nD) (t : Fin cfg0.N) (l : Fin 3) (k : Fin 256) :
    iblk m c 2 t (ix2 l k) = V m c main_arg2 (ix2 l k) := by
  obtain ⟨-, -, -, -, -, e0, e1, -⟩ := block_indices t
  have h : ((cfg0.win 2).blk t).view.emb (ix2 l k) = ix2 l k := by
    funext a; apply Fin.ext
    match a with
    | ⟨0, _⟩ => show win0_2.index t (0 : Fin 2) * 3 + 1 * l.val = l.val; omega
    | ⟨1, _⟩ => show win0_2.index t (1 : Fin 2) * 256 + 1 * k.val = k.val; omega
  show V m c main_arg2 (((cfg0.win 2).blk t).view.emb (ix2 l k)) = _
  rw [h]

/-- The result's block at point `t`, at (p, q), sits at row `4096·t + p`, column `q` of the array. -/
theorem out_block_emb (t : Fin cfg0.N) (p : Fin 4096) (q : Fin 256) :
    ((cfg0.win 3).blk t).view.emb (ix2 p q) = ix2 (rowAt t p) q := by
  obtain ⟨-, -, -, -, -, -, -, e0, e1⟩ := block_indices t
  funext a; apply Fin.ext
  match a with
  | ⟨0, _⟩ => show win0_3.index t (0 : Fin 2) * 4096 + 1 * p.val = t.val * 4096 + p.val; omega
  | ⟨1, _⟩ => show win0_3.index t (1 : Fin 2) * 256 + 1 * q.val = q.val; omega

/-- WHAT POINT `t` WRITES BACK is block `t` of the scalarised array of the arguments as the region finds them. -/
theorem flushed_eq (c : Dev nD) (t : Fin cfg0.N) :
    (dats m 0 c).flushed 3 t = ((cfg0.win 3).blk t).view.read (Elt Ideal)
      (Cert.Cross.scalarisedArr (V m c main_arg0) (V m c main_arg1) (V m c main_arg2)) := by
  rw [Cert.KernelIdeal.Value.flushed3]
  unfold out0_3
  simp only [View.ld_unit_zero (S := S4096x1x256) offsets3, View.ld_unit_zero (S := S3x256) offsets2]
  funext j
  obtain ⟨p, q, rfl⟩ : ∃ (p : Fin 4096) (q : Fin 256), j = ix2 p q := ⟨j 0, j 1, eq_ix2 j⟩
  refine (Cert.KernelIdeal.Value.canon3_eq (F := Ideal) (iblk m c 0 t) (iblk m c 1 t) (iblk m c 2 t) (ix2 p q)).trans ?_
  refine (Cert.Cross.Block.block_at (iblk m c 0 t) (iblk m c 1 t) (iblk m c 2 t) p q).trans ?_
  show _ = Cert.Cross.scalarisedArr (V m c main_arg0) (V m c main_arg1) (V m c main_arg2) (((cfg0.win 3).blk t).view.emb (ix2 p q))
  rw [out_block_emb, Cert.Cross.scalarisedArr_ix2]
  unfold Cert.Cross.scalarisedAt Cert.Cross.rowOf Cert.Cross.paramRow
  simp only [rows_block_at m c t p, weights_block_at m c t, biases_block_at m c t]

/-- An index of the result is in point `t`'s block iff each coordinate is in the block's range on its axis. -/
theorem mem_block (t : Fin cfg0.N) (i : S262144x256.Idx) :
    i ∈ ((cfg0.win 3).blk t).view.set ↔ ∀ a : Fin 2, win0_3.index t a * S4096x256.size a ≤ (i a).val ∧ (i a).val < win0_3.index t a * S4096x256.size a + S4096x256.size a := by
  show i ∈ ((View.whole main_v0).slice (win0_3.rect t)).set ↔ _
  rw [View.set_slice_whole, Rect.mem_set_unit]
  exact Iff.rfl

/-- Row `r` of the result lies in the block of point `r / 4096`. -/
theorem cover (i : S262144x256.Idx) :
    ∃ t : Fin cfg0.N, (cfg0.win 3).flush t = true ∧ i ∈ ((cfg0.win 3).blk t).view.set := by
  have hi0 : (i 0).val < 262144 := (i 0).isLt
  have hi1 : (i 1).val < 256 := (i 1).isLt
  have hlt : (i 0).val / 4096 < grid0.N := by rw [N_0]; omega
  obtain ⟨-, -, -, -, -, -, -, e0, e1⟩ := block_indices ⟨(i 0).val / 4096, hlt⟩
  refine ⟨⟨(i 0).val / 4096, hlt⟩, flush0_3 _, ?_⟩
  rw [mem_block]
  intro a
  match a with
  | ⟨0, _⟩ =>
    show win0_3.index ⟨(i 0).val / 4096, hlt⟩ (0 : Fin 2) * 4096 ≤ (i 0).val ∧ (i 0).val < win0_3.index ⟨(i 0).val / 4096, hlt⟩ (0 : Fin 2) * 4096 + 4096
    have e0' : win0_3.index ⟨(i 0).val / 4096, hlt⟩ (0 : Fin 2) = (i 0).val / 4096 := e0
    omega
  | ⟨1, _⟩ =>
    show win0_3.index ⟨(i 0).val / 4096, hlt⟩ (1 : Fin 2) * 256 ≤ (i 1).val ∧ (i 1).val < win0_3.index ⟨(i 0).val / 4096, hlt⟩ (1 : Fin 2) * 256 + 256
    omega

/-- THE RESULT ARRAY after the run is the scalarised array of the arguments. -/
theorem final (c : Dev nD) :
    (dats m 0 c).arrAt 3 cfg0.N
      = Cert.Cross.scalarisedArr (m ((c : Thread nD τ).loc main_arg0)) (m ((c : Thread nD τ).loc main_arg1)) (m ((c : Thread nD τ).loc main_arg2)) :=
  (dats m 0 c).arrAt_eq_of_cover 3 (Cert.Cross.scalarisedArr (V m c main_arg0) (V m c main_arg1) (V m c main_arg2))
    (fun t _ => flushed_eq m c t) cover

/-- The kernel's run: its result is the scalarised array of its arguments, which are unchanged. -/
theorem kernel_run :
    θ_run defs (onTc (τ := τ) (main (F := Ideal))) ⟨m, fun _ => 0, ρ⟩ fun r => ∀ c : Dev nD,
      r.2.mem ((c : Thread nD τ).loc main_v0)
          = Cert.Cross.scalarisedArr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Cross.Kernel

end
-- ==== Proof.Finite.lean ====
/-
  The precondition makes every entry of the three arrays a real number.

  The precondition is the conjunction, array by array, of "every entry's absolute value is below +∞": the
  absolute value `max x (-x)` of an extended real, compared with the f32 word of +∞ (which denotes `⊤`), all
  the comparisons of an array joined by `and` into one bit, the three bits joined by `and`. Read back: the three
  bits are 1, so every comparison is 1, so `max x (-x) < ⊤` at every entry, and an extended real with that
  property is neither `⊤` nor `⊥`: it is a real.
-/
import proofs.«107063_j74491912782062_2_alg».proof.Pre_finite_inputs
import proofs.«107063_j74491912782062_2_alg».proof.Proof.Gen.Pre_finite_inputs
import Idealize.ShloMosaic.PureOps.Ideal
import Idealize.ShloMosaic.Lib.ValueIdx
import Idealize.ShloMosaic.Lib.ReduceAll
import Idealize.ShloMosaic.Lib.IdealHost

noncomputable section

namespace Cert.Cross.Finite

open Idealize.ShloMosaic Idealize.ShloMosaic.ValueIdx Cert.Pre_finite_inputs

/-- The f32 pattern `0x7F800000` (sign 0, exponent all ones, fraction 0) denotes `+∞`. -/
theorem ofBits_inf_f32 : Ideal.ofBits .f32 0x7F800000#32 = ⊤ := by simp [Ideal.ofBits, Ideal.ieee]

/-- An extended real whose absolute value `max x (-x)` lies strictly below `⊤` is neither infinity, hence a real. -/
theorem real_of_abs_lt_top (x : EReal) (hx : max x (-x) < ⊤) : ∃ a : ℝ, x = (a : EReal) := by
  induction x using EReal.rec with
  | bot => simp at hx
  | coe a => exact ⟨a, rfl⟩
  | top => simp at hx

/-- A one-bit word made from a Boolean is 1 exactly when the Boolean is true. -/
theorem ofBool_eq_one {b : Bool} : BitVec.ofBool b = 1#1 ↔ b = true := by cases b <;> decide

/-- One element of `|x| < c` read back, where `c` is `+∞` everywhere: that element of `x` is a real. -/
theorem real_of_cmp {s : Shape} (x c : FVec Ideal s .f32) (hc : ∀ i, c i = (⊤ : EReal)) (i : s.Idx)
    (e : cmpf .olt (Host.absf x) c i = 1#1) : ∃ a : ℝ, x i = (a : EReal) := by
  apply real_of_abs_lt_top
  have e' : BitVec.ofBool (decide (max (x i) (-(x i)) < c i)) = 1#1 := e
  rw [hc i, ofBool_eq_one, decide_eq_true_eq] at e'
  exact e'

/-- The scalar constant `+∞` broadcast to any shape is `⊤` at every index. -/
theorem bcast_inf_apply {T : Shape} (hb : (⟨0, ![]⟩ : Shape).BroadcastsInDim T ![]) (j : T.Idx) :
    broadcastInDim T ![] hb (constant (F := Ideal) ⟨0, ![]⟩ .f32 0x7F800000#32) j = (⊤ : EReal) := by
  rw [broadcastInDim_scalar_apply]
  exact ofBits_inf_f32

/-- The rank-0 shape has a single index. -/
instance : Subsingleton S_.Idx := ⟨fun a b => funext fun d => d.elim0⟩

theorem real_of_finite_inputs (x0 : FVec Ideal S262144x1x256 .f32) (x1 x2 : FVec Ideal S3x256 .f32)
    (h : Cert.Pre_finite_inputs.fn (F := Ideal) x0 x1 x2 = fun _ => 1#1) :
    (∀ i, ∃ a : ℝ, x0 i = (a : EReal)) ∧ (∀ i, ∃ a : ℝ, x1 i = (a : EReal)) ∧ (∀ i, ∃ a : ℝ, x2 i = (a : EReal)) := by
  have h1 := congrFun h ValueIdx.ix0
  dsimp only [Cert.Pre_finite_inputs.fn] at h1
  obtain ⟨h01, e2⟩ := IntOp.andi_eq_one.1 h1
  obtain ⟨e0, e1⟩ := IntOp.andi_eq_one.1 h01
  refine ⟨fun i => ?_, fun i => ?_, fun i => ?_⟩
  · exact real_of_cmp x0 _ (bcast_inf_apply _) i (Host.reduce_andi_all _ _ _ _ _ e0 i)
  · exact real_of_cmp x1 _ (bcast_inf_apply _) i (Host.reduce_andi_all _ _ _ _ _ e1 i)
  · exact real_of_cmp x2 _ (bcast_inf_apply _) i (Host.reduce_andi_all _ _ _ _ _ e2 i)

end Cert.Cross.Finite

end
-- ==== Proof.lean ====
/- The cross network of three layers on a batch of 262144 rows of 256 entries: the kernel, which lets only
   the layers' scalars `s_i` cross from layer to layer, against the reference, which sums each layer's whole row.

   * The three frames: the two kernels' are the generated frame runs; the reference, a host program, has its
     generated run, of which the frame keeps the unchanged arguments.
   * `preserves`: the idealization rewrote nothing, so there is nothing to state.
   * `algebraic`: the idealized kernel's result array is the SCALARISED array of its arguments
     (Proof/KernelArray.lean, over the generated block-by-block value leg), the reference's result is the LAYERED array
     of the same arguments (Proof/RefValue.lean, over the generated run and its reading), and the two arrays are one
     when every entry is a real number (Proof/CrossSpec.lean: a real scalar distributes over a finite sum), which is
     what the precondition says of the arguments (Proof/Finite.lean). -/
import proofs.«107063_j74491912782062_2_alg».proof.Defs
import proofs.«107063_j74491912782062_2_alg».proof.Proof.Gen.Kernel
import proofs.«107063_j74491912782062_2_alg».proof.Proof.Gen.Kernel.Skeleton
import proofs.«107063_j74491912782062_2_alg».proof.Proof.Gen.Kernel.Launch
import proofs.«107063_j74491912782062_2_alg».proof.Proof.Gen.Kernel.Points
import proofs.«107063_j74491912782062_2_alg».proof.Proof.Gen.Kernel.Frame
import proofs.«107063_j74491912782062_2_alg».proof.Proof.Gen.KernelIdeal
import proofs.«107063_j74491912782062_2_alg».proof.Proof.Gen.KernelIdeal.Skeleton
import proofs.«107063_j74491912782062_2_alg».proof.Proof.Gen.KernelIdeal.Launch
import proofs.«107063_j74491912782062_2_alg».proof.Proof.Gen.KernelIdeal.Points
import proofs.«107063_j74491912782062_2_alg».proof.Proof.Gen.KernelIdeal.Frame
import proofs.«107063_j74491912782062_2_alg».proof.Proof.Gen.ReferenceIdeal
import proofs.«107063_j74491912782062_2_alg».proof.Proof.Gen.Pre_finite_inputs
import proofs.«107063_j74491912782062_2_alg».proof.Proof.Gen.KernelIdeal.Value
import proofs.«107063_j74491912782062_2_alg».proof.Proof.Gen.ReferenceIdeal.Run
import proofs.«107063_j74491912782062_2_alg».proof.Proof.Gen.ReferenceIdeal.Read
import proofs.«107063_j74491912782062_2_alg».proof.Proof.CrossSpec
import proofs.«107063_j74491912782062_2_alg».proof.Proof.RefValue
import proofs.«107063_j74491912782062_2_alg».proof.Proof.KernelArray
import proofs.«107063_j74491912782062_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, of which the frame keeps the unchanged arguments. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the scalarised array of the kernel's arguments: the kernel by its value leg; the reference
    at the layered array of its own arguments, which are the kernel's, and the layered array of real entries is the
    scalarised one. -/
theorem algebraic : Cert.algebraic_KernelIdeal_ReferenceIdeal := by
  intro m ρ m' ρ' hpre hagree
  refine ⟨_, Cert.Cross.Kernel.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.Cross.Ref.reference_is_layered, (hagree c).1, (hagree c).2.1, (hagree c).2.2]
  obtain ⟨h0, h1, h2⟩ := Cert.Cross.Finite.real_of_finite_inputs _ _ _ (hpre c)
  exact Cert.Cross.layeredArr_eq_scalarisedArr _ _ _ h0 h1 h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
